-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x16 : Shape := ⟨3, ![16, 2048, 16]⟩
abbrev S16x2048x2048 : Shape := ⟨3, ![16, 2048, 2048]⟩
abbrev S16 : Shape := ⟨1, ![16]⟩
abbrev S_ : Shape := ⟨0, ![]⟩

class Facts : Prop where
  bcast_S_S16x2048x16 : S_.BroadcastsInDim S16x2048x16 (![] : Fin 0 → Fin S16x2048x16.rank)
  reducesTo_S16x2048x16_S_d0_1_2 : S16x2048x16.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x2048x16 .f32) (main_arg1 : IVec S16x2048x2048 32) (main_arg2 : FVec F S16 .f32) : IVec S_ 1 :=
  let main_v0 : FVec F S16x2048x16 .f32 := Host.absf main_arg0
  let main_cst : FVec F S_ .f32 := constant S_ .f32 0x7F800000#32
  let main_v1 : FVec F S16x2048x16 .f32 := broadcastInDim S16x2048x16 ![] bcast_S_S16x2048x16 main_cst
  let main_v2 : IVec S16x2048x16 1 := cmpf .olt main_v0 main_v1
  let main_c : IVec S_ 1 := constantI S_ 1 1#1
  let main_v3 : IVec S_ 1 := (fun x v => Host.reduce IntOp.andi x v reducesTo_S16x2048x16_S_d0_1_2 h_S_) main_v2 main_c
  let main_v4 : FVec F S16 .f32 := Host.absf main_arg2
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S16x2048x16 : Shape := ⟨3, ![16, 2048, 16]⟩
abbrev S16x2048x2048 : Shape := ⟨3, ![16, 2048, 2048]⟩
abbrev S16 : Shape := ⟨1, ![16]⟩
abbrev S1x1024x16 : Shape := ⟨3, ![1, 1024, 16]⟩
abbrev S1x2048x16 : Shape := ⟨3, ![1, 2048, 16]⟩
abbrev S1x1024x2048 : Shape := ⟨3, ![1, 1024, 2048]⟩
abbrev S1024x16 : Shape := ⟨2, ![1024, 16]⟩
abbrev S1x16 : Shape := ⟨2, ![1, 16]⟩
abbrev S2048x16 : Shape := ⟨2, ![2048, 16]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 9
  | .smem => 0
  | _ => 0

abbrev bufTy : (tb : Table) → Fin (tcTables nBuf tb) → BufTy
  | .hbm, ⟨0, _⟩ => ⟨S16x2048x16, .f32⟩
  | .hbm, ⟨1, _⟩ => ⟨S16x2048x2048, .i32⟩
  | .hbm, ⟨2, _⟩ => ⟨S16, .f32⟩
  | .hbm, ⟨3, _⟩ => ⟨S16x2048x16, .f32⟩
  | .local _ .vmem, ⟨0, _⟩ => ⟨S1x1024x16, .f32⟩
  | .local _ .vmem, ⟨1, _⟩ => ⟨S1x1024x16, .f32⟩
  | .local _ .vmem, ⟨2, _⟩ => ⟨S1x2048x16, .f32⟩
  | .local _ .vmem, ⟨3, _⟩ => ⟨S1x2048x16, .f32⟩
  | .local _ .vmem, ⟨4, _⟩ => ⟨S16, .f32⟩
  | .local _ .vmem, ⟨5, _⟩ => ⟨S1x1024x2048, .i32⟩
  | .local _ .vmem, ⟨6, _⟩ => ⟨S1x1024x2048, .i32⟩
  | .local _ .vmem, ⟨7, _⟩ => ⟨S1x1024x16, .f32⟩
  | .local _ .vmem, ⟨8, _⟩ => ⟨S1x1024x16, .f32⟩
  | _, _ => ⟨S16x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S16_S16_0 : ∀ a, (![0] : Fin 1 → Nat) a + S16.size a ≤ S16.size a
  h_S16 : 0 < S16.numel
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  shapeCasts_S16_S1x16 : S16.ShapeCasts S1x16
  broadcasts_S1x16_S1024x16 : S1x16.Broadcasts S1024x16
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  broadcasts_S1x16_S2048x16 : S1x16.Broadcasts S2048x16
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x16_S1x1024x16 : S1024x16.ShapeCasts S1x1024x16
  dot_S1024x16_S2048x16_S1024x2048_1_1_0_0_n_n_wf : DotDims.WF S1024x16 S2048x16 S1024x2048 [1] [1] [0] [0] [] []
  dot_S1024x2048_S2048x16_S1024x16_1_0_0_1_n_n_wf : DotDims.WF S1024x2048 S2048x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x16.size a ≤ S16x2048x16.size a
  hwx0_0 : ∀ i : grid0.Coords, EltTy.bits .f32 = 32 ∨ (Rect.block (s := S16x2048x16) S1x1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x16.size a ≤ S16x2048x16.size a
  hwx0_1 : ∀ i : grid0.Coords, EltTy.bits .f32 = 32 ∨ (Rect.block (s := S16x2048x16) S1x2048x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S16x2048x2048.size a
  hwx0_3 : ∀ i : grid0.Coords, EltTy.bits .i32 = 32 ∨ (Rect.block (s := S16x2048x2048) S1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x16.size a ≤ S16x2048x16.size a
  hwx0_4 : ∀ i : grid0.Coords, EltTy.bits .f32 = 32 ∨ (Rect.block (s := S16x2048x16) S1x1024x16.size (cc0_transform_4 i) (hinb0_4 i)).WholeWords (EltTy.packing .f32)

variable [Facts₀]

def dot_S1024x16_S2048x16_S1024x2048_1_1_0_0_n_n : DotDims S1024x16 S2048x16 S1024x2048 where
  lhsContracting := [1]
  rhsContracting := [1]
  lhsNonContracting := [0]
  rhsNonContracting := [0]
  lhsBatch := []
  rhsBatch := []
  wf := dot_S1024x16_S2048x16_S1024x2048_1_1_0_0_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf

abbrev win0_0 : Pipeline.Window sig grid0 :=
  Pipeline.Window.ofSpec (Memref.whole main_arg0) S1x1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x16 : Shape := ⟨3, ![16, 2048, 16]⟩
abbrev S16x2048x2048 : Shape := ⟨3, ![16, 2048, 2048]⟩
abbrev S16 : Shape := ⟨1, ![16]⟩
abbrev S1x1x16 : Shape := ⟨3, ![1, 1, 16]⟩
abbrev S16x1x2048x16 : Shape := ⟨4, ![16, 1, 2048, 16]⟩
abbrev S16x1x2048x2048 : Shape := ⟨4, ![16, 1, 2048, 2048]⟩
abbrev S_ : Shape := ⟨0, ![]⟩
abbrev S16x1x2048 : Shape := ⟨3, ![16, 1, 2048]⟩
abbrev S16x1x2048x1 : Shape := ⟨4, ![16, 1, 2048, 1]⟩
abbrev S16x2048x1x16 : Shape := ⟨4, ![16, 2048, 1, 16]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x16, .f32⟩
  | .hbm, ⟨1, _⟩ => ⟨S16x2048x2048, .i32⟩
  | .hbm, ⟨2, _⟩ => ⟨S16, .f32⟩
  | .hbm, ⟨3, _⟩ => ⟨S1x1x16, .f32⟩
  | .hbm, ⟨4, _⟩ => ⟨S16x2048x16, .f32⟩
  | .hbm, ⟨5, _⟩ => ⟨S16x2048x16, .f32⟩
  | .hbm, ⟨6, _⟩ => ⟨S16x2048x16, .f32⟩
  | .hbm, ⟨7, _⟩ => ⟨S16x1x2048x16, .f32⟩
  | .hbm, ⟨8, _⟩ => ⟨S16x1x2048x2048, .f32⟩
  | .hbm, ⟨9, _⟩ => ⟨S_, .f32⟩
  | .hbm, ⟨10, _⟩ => ⟨S_, .f32⟩
  | .hbm, ⟨11, _⟩ => ⟨S16x1x2048x2048, .f32⟩
  | .hbm, ⟨12, _⟩ => ⟨S16x1x2048x2048, .f32⟩
  | .hbm, ⟨13, _⟩ => ⟨S16x1x2048x2048, .i32⟩
  | .hbm, ⟨14, _⟩ => ⟨S_, .i32⟩
  | .hbm, ⟨15, _⟩ => ⟨S16x1x2048x2048, .i32⟩
  | .hbm, ⟨16, _⟩ => ⟨S16x1x2048x2048, .i1⟩
  | .hbm, ⟨17, _⟩ => ⟨S_, .f32⟩
  | .hbm, ⟨18, _⟩ => ⟨S16x1x2048x2048, .f32⟩
  | .hbm, ⟨19, _⟩ => ⟨S16x1x2048x2048, .f32⟩
  | .hbm, ⟨20, _⟩ => ⟨S_, .f32⟩
  | .hbm, ⟨21, _⟩ => ⟨S16x1x2048, .f32⟩
  | .hbm, ⟨22, _⟩ => ⟨S_, .f32⟩
  | .hbm, ⟨23, _⟩ => ⟨S16x1x2048, .f32⟩
  | .hbm, ⟨24, _⟩ => ⟨S16x1x2048, .f32⟩
  | .hbm, ⟨25, _⟩ => ⟨S16x1x2048x1, .f32⟩
  | .hbm, ⟨26, _⟩ => ⟨S16x1x2048x2048, .f32⟩
  | .hbm, ⟨27, _⟩ => ⟨S16x1x2048x2048, .f32⟩
  | .hbm, ⟨28, _⟩ => ⟨S16x1x2048x2048, .f32⟩
  | .hbm, ⟨29, _⟩ => ⟨S_, .f32⟩
  | .hbm, ⟨30, _⟩ => ⟨S16x1x2048, .f32⟩
  | .hbm, ⟨31, _⟩ => ⟨S16x1x2048x1, .f32⟩
  | .hbm, ⟨32, _⟩ => ⟨S16x1x2048x2048, .f32⟩
  | .hbm, ⟨33, _⟩ => ⟨S16x1x2048x2048, .f32⟩
  | .hbm, ⟨34, _⟩ => ⟨S16x1x2048x16, .f32⟩
  | .hbm, ⟨35, _⟩ => ⟨S16x2048x1x16, .f32⟩
  | .hbm, ⟨36, _⟩ => ⟨S16x2048x16, .f32⟩
  | _, _ => ⟨S16x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S16x2048x16_0_1_2 : S1x1x16.BroadcastsInDim S16x2048x16 (![0, 1, 2] : Fin 3 → Fin S16x2048x16.rank)
  bcast_S16x2048x16_S16x1x2048x16_0_2_3 : S16x2048x16.BroadcastsInDim S16x1x2048x16 (![0, 2, 3] : Fin 3 → Fin S16x1x2048x16.rank)
  bcast_S_S16x1x2048x2048 : S_.BroadcastsInDim S16x1x2048x2048 (![] : Fin 0 → Fin S16x1x2048x2048.rank)
  bcast_S16x2048x2048_S16x1x2048x2048_0_2_3 : S16x2048x2048.BroadcastsInDim S16x1x2048x2048 (![0, 2, 3] : Fin 3 → Fin S16x1x2048x2048.rank)
  reducesTo_S16x1x2048x2048_S16x1x2048_d3 : S16x1x2048x2048.ReducesTo [3] S16x1x2048
  h_S_ : 0 < S_.numel
  bcast_S_S16x1x2048 : S_.BroadcastsInDim S16x1x2048 (![] : Fin 0 → Fin S16x1x2048.rank)
  bcast_S16x1x2048_S16x1x2048x1_0_1_2 : S16x1x2048.BroadcastsInDim S16x1x2048x1 (![0, 1, 2] : Fin 3 → Fin S16x1x2048x1.rank)
  bcast_S16x1x2048x1_S16x1x2048x2048_0_1_2_3 : S16x1x2048x1.BroadcastsInDim S16x1x2048x2048 (![0, 1, 2, 3] : Fin 4 → Fin S16x1x2048x2048.rank)
  transposes_S16x1x2048x16_S16x2048x1x16_0_2_1_3 : S16x1x2048x16.Transposes [0, 2, 1, 3] S16x2048x1x16
  shapeCasts_S16x2048x1x16_S16x2048x16 : S16x2048x1x16.ShapeCasts S16x2048x16
  dot_S16x1x2048x16_S16x1x2048x16_S16x1x2048x2048_3_3_2_2_01_01_wf : DotDims.WF S16x1x2048x16 S16x1x2048x16 S16x1x2048x2048 [3] [3] [2] [2] [0, 1] [0, 1]
  dot_S16x1x2048x2048_S16x1x2048x16_S16x1x2048x16_3_2_2_3_01_01_wf : DotDims.WF S16x1x2048x2048 S16x1x2048x16 S16x1x2048x16 [3] [2] [2] [3] [0, 1] [0, 1]

variable [Facts₀]

def dot_S16x1x2048x16_S16x1x2048x16_S16x1x2048x2048_3_3_2_2_01_01 : DotDims S16x1x2048x16 S16x1x2048x16 S16x1x2048x2048 where
  lhsContracting := [3]
  rhsContracting := [3]
  lhsNonContracting := [2]
  rhsNonContracting := [2]
  lhsBatch := [0, 1]
  rhsBatch := [0, 1]
  wf := dot_S16x1x2048x16_S16x1x2048x16_S16x1x2048x2048_3_3_2_2_01_01_wf
def dot_S16x1x2048x2048_S16x1x2048x16_S16x1x2048x16_3_2_2_3_01_01 : DotDims S16x1x2048x2048 S16x1x2048x16 S16x1x2048x16 where
  lhsContracting := [3]
  rhsContracting := [2]
  lhsNonContracting := [2]
  rhsNonContracting := [3]
  lhsBatch := [0, 1]
  rhsBatch := [0, 1]
  wf := dot_S16x1x2048x2048_S16x1x2048x16_S16x1x2048x16_3_2_2_3_01_01_wf

class Facts : Prop extends Facts₀ where

variable [Facts]
-- ==== Proof.KFrameA.lean ====
/-
  The kernel's run, by hand: one grid of 16 × 2 points, each point one batch `b` and one tile of 1024 query rows.
  At a point the body is handed five staged blocks — the tile's rows of `x`, ALL 2048 rows of batch `b` of the SAME
  array `x`, the sixteen angles, the tile's rows of the mask, and the tile of the result — and stores into the last
  one pure function of the first four (`attnTile`). The two windows onto `x` only read it, so the array is held in
  two halves of its full share, one per window; nothing else is shared, no scratch is kept between points, and the
  result tile is written back at every point.
  What is proved: the body's triple, the proof data (what every staging buffer holds after the body at each point),
  each input buffer at its block at every point, the body obligation, how the launch's whole arrays become the two
  half-shares, and the run itself with every windowed array named after it.
-/
import proofs.«147347_j65481071409553_2_alg».proof.Proof.Gen.Kernel.Launch
import proofs.«147347_j65481071409553_2_alg».proof.Proof.Gen.Kernel.Skeleton
import proofs.«147347_j65481071409553_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and a window's block at a point -/

/-- The program is the region alone, so the region finds every array as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body: what it stores, and its triple -/

abbrev rTh : Rect S16 := Rect.unit (s := S16) ![0] S16.size inb_S16_S16_0
abbrev rQ : Rect S1x1024x16 := Rect.unit (s := S1x1024x16) ![0, 0, 0] S1x1024x16.size inb_S1x1024x16_S1x1024x16_0_0_0
abbrev rK : Rect S1x2048x16 := Rect.unit (s := S1x2048x16) ![0, 0, 0] S1x2048x16.size inb_S1x2048x16_S1x2048x16_0_0_0
abbrev rM : Rect S1x1024x2048 := Rect.unit (s := S1x1024x2048) ![0, 0, 0] S1x1024x2048.size inb_S1x1024x2048_S1x1024x2048_0_0_0

/-- The result tile after the body, from the four input blocks: the body's one store, which covers the tile. -/
def attnTile (xq : Vec F S1x1024x16 .f32) (xk : Vec F S1x2048x16 .f32) (th : Vec F S16 .f32) (mq : Vec F S1x1024x2048 .i32) : Vec F S1x1024x16 .f32 :=
  View.canon [⟨rQ, k0_pay1 (View.ld th rTh) (View.ld xq rQ) (View.ld xk rK) (View.ld mq rM)⟩]

theorem attnTile_cover (p0 : Vec F S1x1024x16 .f32) (y : S1x1024x16.Idx) :
    ∃ pc ∈ ([⟨rQ, p0⟩] : List (View.Piece (Elt F) S1x1024x16 .f32)), y ∈ pc.1.set :=
  View.cover_of_tiled [⟨rQ, p0⟩] S1x1024x16.size (by rfl) y

set_option maxHeartbeats 1000000 in
/-- The body on whole staging buffers: the four inputs' at their read contents and the result tile's at anything, it
    runs to the continuation with the inputs' as they were and the result tile's at `attnTile` of them. -/
theorem sound_kernel (c : Dev nD) (E : Set ℕ) (i : grid0.Coords)
    (arg2 : Memref sig .tc .vmem S1x1024x16 .f32) (harg2 : arg2.IsWhole) (arg3 : Memref sig .tc .vmem S1x2048x16 .f32) (harg3 : arg3.IsWhole)
    (arg4 : Memref sig .tc .vmem S16 .f32) (harg4 : arg4.IsWhole) (arg5 : Memref sig .tc .vmem S1x1024x2048 .i32) (harg5 : arg5.IsWhole)
    (arg6 : Memref sig .tc .vmem S1x1024x16 .f32) (harg6 : arg6.IsWhole)
    (xq : Vec F S1x1024x16 .f32) (xk : Vec F S1x2048x16 .f32) (th : Vec F S16 .f32) (mq : Vec F S1x1024x2048 .i32) (K : PUnit → sProp 𝕄) :
    iprop(owns (c : Thread nD τ) arg2 fullShare xq ∗ owns (c : Thread nD τ) arg3 fullShare xk ∗ owns (c : Thread nD τ) arg4 fullShare th
        ∗ owns (c : Thread nD τ) arg5 fullShare mq ∗ (∃ d, owns (c : Thread nD τ) arg6 fullShare d)
        ∗ (iprop(owns (c : Thread nD τ) arg2 fullShare xq ∗ owns (c : Thread nD τ) arg3 fullShare xk ∗ owns (c : Thread nD τ) arg4 fullShare th
            ∗ owns (c : Thread nD τ) arg5 fullShare mq ∗ owns (c : Thread nD τ) arg6 fullShare (attnTile xq xk th mq)) -∗ K ⟨⟩))
      ⊢ wp frame (wpE (defs₀ (F := F)) Variants.none c none) E (cc0__attn_kernel i arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (attnTile_cover _)

end Cert.Kernel.Hand

end
-- ==== Proof.KFrameB.lean ====
/-
  The proof data of the kernel's one pipeline and its body obligation: after the body at a point every input's
  staging buffer still holds the input's block there and the result's holds `attnTile` of the four blocks; an input's
  buffer holds its block at every point whether the pipeline fetched it there or kept it from the point before.
  The two windows onto `x` hold the array at the two halves of the full share.
-/
import proofs.«147347_j65481071409553_2_alg».proof.Proof.KFrameA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as launched; after the body at point `t` each input's buffer at its block and the
    result's at `attnTile` of the blocks; no invariant of the kernel's own (it has no scratch and draws no random
    bits); the array `x` held at the left half of the full share by the window of query rows and at the right half
    by the window of key rows, the angles and the mask outright; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => attnTile (iblk m c 0 t) (iblk m c 1 t) (iblk m c 2 t) (iblk m c 3 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = attnTile (iblk m c 0 t) (iblk m c 1 t) (iblk m c 2 t) (iblk m c 3 t) := by dsimp only [dats]

/-! ## An input's buffer holds its block at every point -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KFrameC.lean ====
/-
  The launch. The two windows onto `x` split the array's full share in two halves; with that, the region rule for a
  kernel with no semaphore of its own whose input windows may share an array gives the run: every weakly fair
  execution terminates without a fault, the three argument arrays end as launched (no window writes them back), and
  the result array ends at what the write-backs of the 32 points make of it.
-/
import proofs.«147347_j65481071409553_2_alg».proof.Proof.KFrameB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four distinct buffers behind the five windows, each whole at the full share, are the windows' arrays at the
    shares the proof data name: the buffer of `x` split into its left half (the query rows' window) and its right
    half (the key rows' window), the others as they are. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [bigSep_eq_bigSepL_of_eq [main_arg0, main_arg2, main_arg1, main_v0] (by decide) (by decide)]
  simp only [bigSepL_cons_cons, bigSepL_singleton]
  rw [(arr_whole0 0).set_eq_univ, (arr_whole0 2).set_eq_univ, (arr_whole0 3).set_eq_univ, (arr_whole0 4).set_eq_univ]
  show iprop(((c.tc : Thread nD τ).loc main_arg0 ↦{fullShare} V m c main_arg0) ∗ ((c.tc : Thread nD τ).loc main_arg2 ↦{fullShare} V m c main_arg2)
      ∗ ((c.tc : Thread nD τ).loc main_arg1 ↦{fullShare} V m c main_arg1) ∗ ((c.tc : Thread nD τ).loc main_v0 ↦{fullShare} V m c main_v0))
    ⊢ iprop(((c.tc : Thread nD τ).loc main_arg0 ↦{fullShare.left} V m c main_arg0) ∗ ((c.tc : Thread nD τ).loc main_arg0 ↦{fullShare.right} V m c main_arg0)
      ∗ ((c.tc : Thread nD τ).loc main_arg2 ↦{fullShare} V m c main_arg2) ∗ ((c.tc : Thread nD τ).loc main_arg1 ↦{fullShare} V m c main_arg1)
      ∗ ((c.tc : Thread nD τ).loc main_v0 ↦{fullShare} V m c main_v0))
  iintro ⟨H0, H2, H1, H4⟩
  ihave ⟨Ha, Hb⟩ := (pointsTo_share (PosShare.mem_left_op_right fullShare)).1 $$ H0
  isplitl [Ha]; · iexact Ha
  isplitl [Hb]; · iexact Hb
  isplitl [H2]; · iexact H2
  isplitl [H1]; · iexact H1
  iexact H4

set_option backward.isDefEq.respectTransparency.types false in
/-- At the compiled mesh, for any values, from any memory with zero counters: every weakly fair execution terminates
    without a fault, and every windowed array ends at what the proof data compute for it. -/
theorem run_main : θ_run defs (onTc (τ := τ) (main (F := F))) (s₀ m ρ)
    (fun r => ∀ (c : Dev nD) (w : Fin cfg0.W), r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [scopedRest0_eq]
      show iprop(emp ∗ emp) ⊢ (iprop(emp) : sProp 𝕄)
      iintro ⟨-, -⟩; iempintro)
    (hout := fun c => by
      rw [scopedRest0_eq]
      show (iprop(emp) : sProp 𝕄) ⊢ iprop(emp ∗ emp)
      iintro -; isplitr <;> iempintro)
    (QY := fun _ _ => True)
    (hY := fun c s' => by
      iintro ⟨-, -, HSI⟩; imodintro
      isplitr; · ipureintro; trivial
      iexact HSI)
    (hQ := fun _ h c w => (h c).1 w)

/-- info: 'Cert.Kernel.Hand.run_main' depends on axioms: [propext, Classical.choice, Quot.sound] -/
#guard_msgs in #print axioms run_main

/-- The run with the result array named and the three argument arrays as launched. -/
theorem run_named : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c 4,
      (h c 0).trans (((dats m 0 c).arrAt_in 0 rfl _).trans (A_eq m c 0)),
      (h c 3).trans (((dats m 0 c).arrAt_in 3 rfl _).trans (A_eq m c 3)),
      (h c 2).trans (((dats m 0 c).arrAt_in 2 rfl _).trans (A_eq m c 2))⟩) (run_main m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_named m ρ)

end Cert.Kernel.Hand

end
-- ==== Proof.KIFrameA.lean ====
/-
  The kernel's run, by hand: one grid of 16 × 2 points, each point one batch `b` and one tile of 1024 query rows.
  At a point the body is handed five staged blocks — the tile's rows of `x`, ALL 2048 rows of batch `b` of the SAME
  array `x`, the sixteen angles, the tile's rows of the mask, and the tile of the result — and stores into the last
  one pure function of the first four (`attnTile`). The two windows onto `x` only read it, so the array is held in
  two halves of its full share, one per window; nothing else is shared, no scratch is kept between points, and the
  result tile is written back at every point.
  What is proved: the body's triple, the proof data (what every staging buffer holds after the body at each point),
  each input buffer at its block at every point, the body obligation, how the launch's whole arrays become the two
  half-shares, and the run itself with every windowed array named after it.
-/
import proofs.«147347_j65481071409553_2_alg».proof.Proof.Gen.KernelIdeal.Launch
import proofs.«147347_j65481071409553_2_alg».proof.Proof.Gen.KernelIdeal.Skeleton
import proofs.«147347_j65481071409553_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and a window's block at a point -/

/-- The program is the region alone, so the region finds every array as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body: what it stores, and its triple -/

abbrev rTh : Rect S16 := Rect.unit (s := S16) ![0] S16.size inb_S16_S16_0
abbrev rQ : Rect S1x1024x16 := Rect.unit (s := S1x1024x16) ![0, 0, 0] S1x1024x16.size inb_S1x1024x16_S1x1024x16_0_0_0
abbrev rK : Rect S1x2048x16 := Rect.unit (s := S1x2048x16) ![0, 0, 0] S1x2048x16.size inb_S1x2048x16_S1x2048x16_0_0_0
abbrev rM : Rect S1x1024x2048 := Rect.unit (s := S1x1024x2048) ![0, 0, 0] S1x1024x2048.size inb_S1x1024x2048_S1x1024x2048_0_0_0

/-- The result tile after the body, from the four input blocks: the body's one store, which covers the tile. -/
def attnTile (xq : Vec F S1x1024x16 .f32) (xk : Vec F S1x2048x16 .f32) (th : Vec F S16 .f32) (mq : Vec F S1x1024x2048 .i32) : Vec F S1x1024x16 .f32 :=
  View.canon [⟨rQ, k0_pay1 (View.ld th rTh) (View.ld xq rQ) (View.ld xk rK) (View.ld mq rM)⟩]

theorem attnTile_cover (p0 : Vec F S1x1024x16 .f32) (y : S1x1024x16.Idx) :
    ∃ pc ∈ ([⟨rQ, p0⟩] : List (View.Piece (Elt F) S1x1024x16 .f32)), y ∈ pc.1.set :=
  View.cover_of_tiled [⟨rQ, p0⟩] S1x1024x16.size (by rfl) y

set_option maxHeartbeats 1000000 in
/-- The body on whole staging buffers: the four inputs' at their read contents and the result tile's at anything, it
    runs to the continuation with the inputs' as they were and the result tile's at `attnTile` of them. -/
theorem sound_kernel (c : Dev nD) (E : Set ℕ) (i : grid0.Coords)
    (arg2 : Memref sig .tc .vmem S1x1024x16 .f32) (harg2 : arg2.IsWhole) (arg3 : Memref sig .tc .vmem S1x2048x16 .f32) (harg3 : arg3.IsWhole)
    (arg4 : Memref sig .tc .vmem S16 .f32) (harg4 : arg4.IsWhole) (arg5 : Memref sig .tc .vmem S1x1024x2048 .i32) (harg5 : arg5.IsWhole)
    (arg6 : Memref sig .tc .vmem S1x1024x16 .f32) (harg6 : arg6.IsWhole)
    (xq : Vec F S1x1024x16 .f32) (xk : Vec F S1x2048x16 .f32) (th : Vec F S16 .f32) (mq : Vec F S1x1024x2048 .i32) (K : PUnit → sProp 𝕄) :
    iprop(owns (c : Thread nD τ) arg2 fullShare xq ∗ owns (c : Thread nD τ) arg3 fullShare xk ∗ owns (c : Thread nD τ) arg4 fullShare th
        ∗ owns (c : Thread nD τ) arg5 fullShare mq ∗ (∃ d, owns (c : Thread nD τ) arg6 fullShare d)
        ∗ (iprop(owns (c : Thread nD τ) arg2 fullShare xq ∗ owns (c : Thread nD τ) arg3 fullShare xk ∗ owns (c : Thread nD τ) arg4 fullShare th
            ∗ owns (c : Thread nD τ) arg5 fullShare mq ∗ owns (c : Thread nD τ) arg6 fullShare (attnTile xq xk th mq)) -∗ K ⟨⟩))
      ⊢ wp frame (wpE (defs₀ (F := F)) Variants.none c none) E (cc0__attn_kernel i arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (attnTile_cover _)

end Cert.KernelIdeal.Hand

end
-- ==== Proof.KIFrameB.lean ====
/-
  The proof data of the kernel's one pipeline and its body obligation: after the body at a point every input's
  staging buffer still holds the input's block there and the result's holds `attnTile` of the four blocks; an input's
  buffer holds its block at every point whether the pipeline fetched it there or kept it from the point before.
  The two windows onto `x` hold the array at the two halves of the full share.
-/
import proofs.«147347_j65481071409553_2_alg».proof.Proof.KIFrameA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as launched; after the body at point `t` each input's buffer at its block and the
    result's at `attnTile` of the blocks; no invariant of the kernel's own (it has no scratch and draws no random
    bits); the array `x` held at the left half of the full share by the window of query rows and at the right half
    by the window of key rows, the angles and the mask outright; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => attnTile (iblk m c 0 t) (iblk m c 1 t) (iblk m c 2 t) (iblk m c 3 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = attnTile (iblk m c 0 t) (iblk m c 1 t) (iblk m c 2 t) (iblk m c 3 t) := by dsimp only [dats]

/-! ## An input's buffer holds its block at every point -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIFrameC.lean ====
/-
  The launch. The two windows onto `x` split the array's full share in two halves; with that, the region rule for a
  kernel with no semaphore of its own whose input windows may share an array gives the run: every weakly fair
  execution terminates without a fault, the three argument arrays end as launched (no window writes them back), and
  the result array ends at what the write-backs of the 32 points make of it.
-/
import proofs.«147347_j65481071409553_2_alg».proof.Proof.KIFrameB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four distinct buffers behind the five windows, each whole at the full share, are the windows' arrays at the
    shares the proof data name: the buffer of `x` split into its left half (the query rows' window) and its right
    half (the key rows' window), the others as they are. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [bigSep_eq_bigSepL_of_eq [main_arg0, main_arg2, main_arg1, main_v0] (by decide) (by decide)]
  simp only [bigSepL_cons_cons, bigSepL_singleton]
  rw [(arr_whole0 0).set_eq_univ, (arr_whole0 2).set_eq_univ, (arr_whole0 3).set_eq_univ, (arr_whole0 4).set_eq_univ]
  show iprop(((c.tc : Thread nD τ).loc main_arg0 ↦{fullShare} V m c main_arg0) ∗ ((c.tc : Thread nD τ).loc main_arg2 ↦{fullShare} V m c main_arg2)
      ∗ ((c.tc : Thread nD τ).loc main_arg1 ↦{fullShare} V m c main_arg1) ∗ ((c.tc : Thread nD τ).loc main_v0 ↦{fullShare} V m c main_v0))
    ⊢ iprop(((c.tc : Thread nD τ).loc main_arg0 ↦{fullShare.left} V m c main_arg0) ∗ ((c.tc : Thread nD τ).loc main_arg0 ↦{fullShare.right} V m c main_arg0)
      ∗ ((c.tc : Thread nD τ).loc main_arg2 ↦{fullShare} V m c main_arg2) ∗ ((c.tc : Thread nD τ).loc main_arg1 ↦{fullShare} V m c main_arg1)
      ∗ ((c.tc : Thread nD τ).loc main_v0 ↦{fullShare} V m c main_v0))
  iintro ⟨H0, H2, H1, H4⟩
  ihave ⟨Ha, Hb⟩ := (pointsTo_share (PosShare.mem_left_op_right fullShare)).1 $$ H0
  isplitl [Ha]; · iexact Ha
  isplitl [Hb]; · iexact Hb
  isplitl [H2]; · iexact H2
  isplitl [H1]; · iexact H1
  iexact H4

set_option backward.isDefEq.respectTransparency.types false in
/-- At the compiled mesh, for any values, from any memory with zero counters: every weakly fair execution terminates
    without a fault, and every windowed array ends at what the proof data compute for it. -/
theorem run_main : θ_run defs (onTc (τ := τ) (main (F := F))) (s₀ m ρ)
    (fun r => ∀ (c : Dev nD) (w : Fin cfg0.W), r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [scopedRest0_eq]
      show iprop(emp ∗ emp) ⊢ (iprop(emp) : sProp 𝕄)
      iintro ⟨-, -⟩; iempintro)
    (hout := fun c => by
      rw [scopedRest0_eq]
      show (iprop(emp) : sProp 𝕄) ⊢ iprop(emp ∗ emp)
      iintro -; isplitr <;> iempintro)
    (QY := fun _ _ => True)
    (hY := fun c s' => by
      iintro ⟨-, -, HSI⟩; imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

/-- The run with the result array named and the three argument arrays as launched. -/
theorem run_named : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c 4,
      (h c 0).trans (((dats m 0 c).arrAt_in 0 rfl _).trans (A_eq m c 0)),
      (h c 3).trans (((dats m 0 c).arrAt_in 3 rfl _).trans (A_eq m c 3)),
      (h c 2).trans (((dats m 0 c).arrAt_in 2 rfl _).trans (A_eq m c 2))⟩) (run_main m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_named m ρ)

end Cert.KernelIdeal.Hand

end
-- ==== Proof.Frames.lean ====
/-
  The three frame claims and the idealization claim. Each of the two printings of the kernel runs to the end, faults
  nowhere and leaves the three argument arrays as launched (the hand launch of its one pipeline); the reference is a
  straight line of host operations, whose run leaves the arguments untouched; and the idealized kernel is the
  kernel's own text read at the extended reals: no operation was rewritten, so there is nothing to restate.
-/
import proofs.«147347_j65481071409553_2_alg».proof.Defs
import proofs.«147347_j65481071409553_2_alg».proof.Proof.KFrameC
import proofs.«147347_j65481071409553_2_alg».proof.Proof.KIFrameC
import proofs.«147347_j65481071409553_2_alg».proof.Proof.Gen.ReferenceIdeal.Run
import proofs.«147347_j65481071409553_2_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Claims

end
-- ==== Proof.Spec.lean ====
/-
  The two closed forms this certificate joins, as functions of the argument arrays over the extended reals.

  Every token row of `x` is turned into sixteen features `cos (x + θ)`; query, key and value are all that one feature
  array. A score is the dot product of a query row with a key row, scaled by a quarter, or the fixed number `-1e9`
  where the integer mask is zero; a query row's output is the softmax-weighted sum of the value rows.

  `outK` is that computation with the weights `exp s / Σ exp s` taken directly and the scale a product with `0.25`;
  `outR` subtracts the row's largest score before exponentiating and scales by a division by `√16`. `blockOut` is
  `outK`'s computation on one batch's tile of query rows against that batch's full set of key rows.
-/
import Idealize.ShloMosaic.PureOps.Ideal
import Idealize.ShloMosaic.Lib.ValueIdx

noncomputable section

open scoped BigOperators

namespace Cert.Attn

open Idealize.ShloMosaic Idealize.ShloMosaic.ValueIdx

/-- The score of a masked-out pair: the float word of `-1e9`. -/
def negBig : EReal := Ideal.ofBits .f32 0xCE6E6B28#32
/-- The float word of `0.25`. -/
def quarter : EReal := Ideal.ofBits .f32 0x3E800000#32
/-- The float word of `16`. -/
def sixteen : EReal := Ideal.ofBits .f32 0x41800000#32

/-- One query row's output coordinate from its scores `s` and the value column `v`: `Σ_k (exp s_k / Σ_j exp s_j) · v_k`. -/
def attend {K : Type} [Fintype K] (s v : K → EReal) : EReal :=
  ∑ k, Ideal.div (Ideal.exp (s k)) (∑ j, Ideal.exp (s j)) * v k

/-- The same with the row's largest score subtracted from every score first. -/
def attendShifted {K : Type} [Fintype K] (s v : K → EReal) : EReal :=
  ∑ k, Ideal.div (Ideal.exp (s k - Finset.univ.sup s)) (∑ j, Ideal.exp (s j - Finset.univ.sup s)) * v k

abbrev XIdx := (⟨3, ![16, 2048, 16]⟩ : Shape).Idx
abbrev MIdx := (⟨3, ![16, 2048, 2048]⟩ : Shape).Idx
abbrev TIdx := (⟨1, ![16]⟩ : Shape).Idx
abbrev QBlk := (⟨3, ![1, 1024, 16]⟩ : Shape).Idx
abbrev KBlk := (⟨3, ![1, 2048, 16]⟩ : Shape).Idx
abbrev MBlk := (⟨3, ![1, 1024, 2048]⟩ : Shape).Idx

/-- Feature `d` of token `s` of batch `b`. -/
def feat (x : XIdx → EReal) (θ : TIdx → EReal) (b : Fin 16) (s : Fin 2048) (d : Fin 16) : EReal :=
  Ideal.cos (x (ix3 b s d) + θ (ix1 d))

/-- The unscaled score: query row `q` against key row `k`. -/
def dotQK (x : XIdx → EReal) (θ : TIdx → EReal) (b : Fin 16) (q k : Fin 2048) : EReal :=
  ∑ d : Fin 16, feat x θ b q d * feat x θ b k d

/-- The masked score with the scale a product with `0.25`. -/
def scoreK (x : XIdx → EReal) (mk : MIdx → BitVec 32) (θ : TIdx → EReal) (b : Fin 16) (q k : Fin 2048) : EReal :=
  if mk (ix3 b q k) = 0#32 then negBig else dotQK x θ b q k * quarter

/-- The masked score with the scale a division by `√16`. -/
def scoreR (x : XIdx → EReal) (mk : MIdx → BitVec 32) (θ : TIdx → EReal) (b : Fin 16) (q k : Fin 2048) : EReal :=
  if mk (ix3 b q k) = 0#32 then negBig else Ideal.div (dotQK x θ b q k) (Ideal.sqrt sixteen)

/-- The result array, weights taken directly. -/
def outK (x : XIdx → EReal) (mk : MIdx → BitVec 32) (θ : TIdx → EReal) : XIdx → EReal := fun i =>
  attend (fun k => scoreK x mk θ (i 0) (i 1) k) (fun k => feat x θ (i 0) k (i 2))

/-- The result array, the row maximum subtracted first. -/
def outR (x : XIdx → EReal) (mk : MIdx → BitVec 32) (θ : TIdx → EReal) : XIdx → EReal := fun i =>
  attendShifted (fun k => scoreR x mk θ (i 0) (i 1) k) (fun k => feat x θ (i 0) k (i 2))

/-! ## One tile of query rows against one batch's key rows -/

/-- Feature `d` of row `r` of a tile of query rows. -/
def featQ (th : TIdx → EReal) (xq : QBlk → EReal) (r : Fin 1024) (d : Fin 16) : EReal :=
  Ideal.cos (xq (ix3 0 r d) + th (ix1 d))

/-- Feature `d` of key row `k` of the batch. -/
def featK (th : TIdx → EReal) (xf : KBlk → EReal) (k : Fin 2048) (d : Fin 16) : EReal :=
  Ideal.cos (xf (ix3 0 k d) + th (ix1 d))

/-- The tile's masked score. -/
def scoreB (th : TIdx → EReal) (xq : QBlk → EReal) (xf : KBlk → EReal) (mq : MBlk → BitVec 32) (r : Fin 1024) (k : Fin 2048) : EReal :=
  if mq (ix3 0 r k) = 0#32 then negBig else (∑ d : Fin 16, featQ th xq r d * featK th xf k d) * quarter

/-- The tile's output. -/
def blockOut (th : TIdx → EReal) (xq : QBlk → EReal) (xf : KBlk → EReal) (mq : MBlk → BitVec 32) : QBlk → EReal := fun i =>
  attend (fun k => scoreB th xq xf mq (i 1) k) (fun k => featK th xf k (i 2))

end Cert.Attn

end
-- ==== Proof.KIValue0.lean ====
/-
  From the tiles to the array: what the kernel's result array holds after the run.

  The grid has 16 × 2 points; the point with coordinates `(b, h)` handles batch `b` and the query rows
  `1024·h … 1024·h + 1023`. Its five blocks are: those query rows of `x`, all 2048 rows of batch `b` of `x`, the sixteen
  angles, those rows of the mask, and those rows of the result. Entry `(0, r, d)` of a tile is entry `(b, 1024·h + r, d)`
  of its array, entry `(0, k, d)` of the key block is entry `(b, k, d)` of `x`. With every block read where it sits in
  its array, the tile computation on the blocks is the whole-array closed form restricted to the tile; the 32 result
  tiles cover the result array (row `r` of batch `b` lies in the tile of the point `(b, r / 1024)`), so the array ends
  holding the closed form everywhere.
-/
import proofs.«147347_j65481071409553_2_alg».proof.Proof.KIFrameB
import proofs.«147347_j65481071409553_2_alg».proof.Proof.Spec
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Attn

variable (m : (ℓ : Loc nD τ sig) → Buf (Elt Ideal) ℓ)

theorem zeros3 : (![0, 0, 0] : Fin 3 → Nat) = fun _ => 0 := funext fun a => by fin_cases a <;> rfl
theorem zeros1 : (![0] : Fin 1 → Nat) = fun _ => 0 := funext fun a => by fin_cases a <;> rfl

/-! ## The block indices over the grid -/

/-- The result tile's block index at every point: a batch below 16, a half below 2, and 0 on the feature axis. -/
theorem tile_range : ∀ t : Fin cfg0.N, win0_4.index t (0 : Fin 3) ≤ 15 ∧ win0_4.index t (1 : Fin 3) ≤ 1
    ∧ win0_4.index t (2 : Fin 3) = 0 :=
  (by decide +kernel : ∀ t : Fin grid0.N, _)

/-- The query tile and the mask tile sit where the result tile sits; the key block is the whole batch of the result
    tile; the angles' block is the whole array. -/
theorem tile_rel : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0
    ∧ win0_1.index t (2 : Fin 3) = 0
    ∧ win0_2.index t (0 : Fin 1) = 0
    ∧ win0_3.index t (0 : Fin 3) = win0_4.index t (0 : Fin 3) ∧ win0_3.index t (1 : Fin 3) = win0_4.index t (1 : Fin 3)
    ∧ win0_3.index t (2 : Fin 3) = 0 :=
  (by decide +kernel : ∀ t : Fin grid0.N, _)

/-- Every batch and half is some point's. -/
theorem tile_onto : ∀ (b : Fin 16) (h : Fin 2), ∃ t : Fin cfg0.N, win0_4.index t = ![b.val, h.val, 0] :=
  (by decide +kernel : ∀ (b : Fin 16) (h : Fin 2), ∃ t : Fin grid0.N, win0_4.index t = ![b.val, h.val, 0])

/-- The batch of point `t`. -/
def batchOf (t : Fin cfg0.N) : Fin 16 := ⟨win0_4.index t (0 : Fin 3), Nat.lt_succ_of_le (tile_range t).1⟩

/-- The row of the array that row `r` of point `t`'s tile is. -/
def rowOf (t : Fin cfg0.N) (r : Fin 1024) : Fin 2048 :=
  ⟨win0_4.index t (1 : Fin 3) * 1024 + r.val, by have := (tile_range t).2.1; have := r.isLt; omega⟩

/-! ## The tile computation on blocks that are restrictions of the arrays -/

/-- When the four blocks are the arrays read at batch `B` and at the rows `row r`, the tile's output at `(·, r, d)` is
    the closed form at `(B, row r, d)`. -/
theorem blockOut_apply (x : XIdx → EReal) (mk : MIdx → BitVec 32) (θ : TIdx → EReal)
    (th : TIdx → EReal) (xq : QBlk → EReal) (xf : KBlk → EReal) (mq : MBlk → BitVec 32)
    (B : Fin 16) (row : Fin 1024 → Fin 2048)
    (hth : ∀ d : Fin 16, th (ix1 d) = θ (ix1 d))
    (hxq : ∀ (r : Fin 1024) (d : Fin 16), xq (ix3 (0 : Fin 1) r d) = x (ix3 B (row r) d))
    (hxf : ∀ (k : Fin 2048) (d : Fin 16), xf (ix3 (0 : Fin 1) k d) = x (ix3 B k d))
    (hmq : ∀ (r : Fin 1024) (k : Fin 2048), mq (ix3 (0 : Fin 1) r k) = mk (ix3 B (row r) k))
    (u : Fin 1) (r : Fin 1024) (d : Fin 16) :
    blockOut th xq xf mq (ix3 u r d) = outK x mk θ (ix3 B (row r) d) := by
  have hK : ∀ (k : Fin 2048) (e : Fin 16), featK th xf k e = feat x θ B k e := fun k e => by
    unfold featK feat; rw [hxf, hth]
  have hQ : ∀ e : Fin 16, featQ th xq r e = feat x θ B (row r) e := fun e => by
    unfold featQ feat; rw [hxq, hth]
  have hS : ∀ k : Fin 2048, scoreB th xq xf mq r k = scoreK x mk θ B (row r) k := fun k => by
    unfold scoreB scoreK dotQK; rw [hmq]; simp only [hQ, hK]
  show attend (fun k => scoreB th xq xf mq r k) (fun k => featK th xf k d)
    = attend (fun k => scoreK x mk θ B (row r) k) (fun k => feat x θ B k d)
  simp only [hS, hK]

/-! ## Each block read where it sits in its array -/

section Point
variable (c : Dev nD) (t : Fin cfg0.N)

/-- The query tile: entry `(0, r, d)` is `x (b, 1024·h + r, d)`. -/
theorem queryTile_apply (r : Fin 1024) (d : Fin 16) :
    (iblk m c 0 t : Vec Ideal S1x1024x16 .f32) (ix3 (0 : Fin 1) r d)
      = (m ((c.tc : Thread nD τ).loc main_arg0) : S16x2048x16.Idx → EReal) (ix3 (batchOf t) (rowOf t r) d) := by
  obtain ⟨e0, e1, e2, -⟩ := tile_rel t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = win0_4.index t (0 : Fin 3); omega
  | ⟨1, _⟩ => show win0_0.index t (1 : Fin 3) * 1024 + 1 * r.val = win0_4.index t (1 : Fin 3) * 1024 + r.val; omega
  | ⟨2, _⟩ => show win0_0.index t (2 : Fin 3) * 16 + 1 * d.val = d.val; omega

/-- The key block: entry `(0, k, d)` is `x (b, k, d)`. -/
theorem keyBlock_apply (k : Fin 2048) (d : Fin 16) :
    (iblk m c 1 t : Vec Ideal S1x2048x16 .f32) (ix3 (0 : Fin 1) k d)
      = (m ((c.tc : Thread nD τ).loc main_arg0) : S16x2048x16.Idx → EReal) (ix3 (batchOf t) k d) := by
  obtain ⟨-, -, -, e0, e1, e2, -⟩ := tile_rel t
  unfold iblk
  rw [View.read_apply]
  show V m c main_arg0 _ = m (c.tc.loc main_arg0) _
  unfold V
  congr 1
  funext a
  apply Fin.ext
  match a with
  | ⟨0, _⟩ => show win0_1.index t (0 : Fin 3) * 1 + 1 * 0 = win0_4.index t (0 : Fin 3); omega
  | ⟨1, _⟩ => show win0_1.index t (1 : Fin 3) * 2048 + 1 * k.val = k.val; omega
  | ⟨2, _⟩ => show win0_1.index t (2 : Fin 3) * 16 + 1 * d.val = d.val; omega

/-- The angles' block is the array of angles. -/
theorem angles_apply (d : Fin 16) :
    (iblk m c 2 t : Vec Ideal S16 .f32) (ix1 d)
      = (m ((c.tc : Thread nD τ).loc main_arg2) : S16.Idx → EReal) (ix1 d) := by
  obtain ⟨-, -, -, -, -, -, e0, -⟩ := tile_rel t
  unfold iblk
  rw [View.read_apply]
  show V m c main_arg2 _ = m (c.tc.loc main_arg2) _
  unfold V
  congr 1
  funext a
  apply Fin.ext
  match a with
  | ⟨0, _⟩ => show win0_2.index t (0 : Fin 1) * 16 + 1 * d.val = d.val; omega

/-- The mask tile: entry `(0, r, k)` is the mask at `(b, 1024·h + r, k)`. -/
theorem maskTile_apply (r : Fin 1024) (k : Fin 2048) :
    (iblk m c 3 t : Vec Ideal S1x1024x2048 .i32) (ix3 (0 : Fin 1) r k)
      = (m ((c.tc : Thread nD τ).loc main_arg1) : S16x2048x2048.Idx → BitVec 32) (ix3 (batchOf t) (rowOf t r) k) := by
  obtain ⟨-, -, -, -, -, -, -, e0, e1, e2⟩ := tile_rel t
  unfold iblk
  rw [View.read_apply]
  show V m c main_arg1 _ = m (c.tc.loc main_arg1) _
  unfold V
  congr 1
  funext a
  apply Fin.ext
  match a with
  | ⟨0, _⟩ => show win0_3.index t (0 : Fin 3) * 1 + 1 * 0 = win0_4.index t (0 : Fin 3); omega
  | ⟨1, _⟩ => show win0_3.index t (1 : Fin 3) * 1024 + 1 * r.val = win0_4.index t (1 : Fin 3) * 1024 + r.val; omega
  | ⟨2, _⟩ => show win0_3.index t (2 : Fin 3) * 2048 + 1 * k.val = k.val; omega

/-- The result tile: its entry `(·, r, d)` is entry `(b, 1024·h + r, d)` of the result array. -/
theorem resultTile_emb (u : Fin 1) (r : Fin 1024) (d : Fin 16) :
    ((cfg0.win 4).blk t).view.emb (ix3 u r d) = ix3 (batchOf t) (rowOf t r) d := by
  obtain ⟨-, -, e2⟩ := tile_range t
  have hu := u.isLt
  funext a
  apply Fin.ext
  match a with
  | ⟨0, _⟩ => show win0_4.index t (0 : Fin 3) * 1 + 1 * u.val = win0_4.index t (0 : Fin 3); omega
  | ⟨1, _⟩ => show win0_4.index t (1 : Fin 3) * 1024 + 1 * r.val = win0_4.index t (1 : Fin 3) * 1024 + r.val; omega
  | ⟨2, _⟩ => show win0_4.index t (2 : Fin 3) * 16 + 1 * d.val = d.val; omega

end Point

/-! ## What a point writes back, the cover, and the array -/

section Final
variable (hpay : ∀ (v0 : Vec Ideal S16 .f32) (v1 : Vec Ideal S1x1024x16 .f32) (v7 : Vec Ideal S1x2048x16 .f32)
    (v13 : Vec Ideal S1x1024x2048 .i32), k0_pay1 (F := Ideal) v0 v1 v7 v13 = blockOut v0 v1 v7 v13)
include hpay

/-- What point `t` writes back is its tile of the closed form of the argument arrays. -/
theorem flushed_eq (c : Dev nD) (t : Fin cfg0.N) :
    (dats m 0 c).flushed 4 t = ((cfg0.win 4).blk t).view.read (Elt Ideal)
      (outK (m ((c.tc : Thread nD τ).loc main_arg0)) (m ((c.tc : Thread nD τ).loc main_arg1)) (m ((c.tc : Thread nD τ).loc main_arg2))) := by
  show (cfg0.win 4).cut (grid0.coords t) ((dats m 0 c).after 4 t) = _
  rw [after0_4]
  unfold attnTile
  rw [View.canon_unit_zero zeros3]
  simp only [View.ld_unit_zero (S := S16) zeros1, View.ld_unit_zero (S := S1x1024x16) zeros3,
    View.ld_unit_zero (S := S1x2048x16) zeros3, View.ld_unit_zero (S := S1x1024x2048) zeros3]
  rw [hpay]
  funext j
  obtain ⟨u, r, d, rfl⟩ : ∃ (u : Fin 1) (r : Fin 1024) (d : Fin 16), j = ix3 u r d :=
    ⟨j 0, j 1, j 2, eq_ix3 (n0 := 1) (n1 := 1024) (n2 := 16) j⟩
  rw [View.read_apply, resultTile_emb]
  exact blockOut_apply _ _ _ _ _ _ _ (batchOf t) (rowOf t) (angles_apply m c t) (queryTile_apply m c t)
    (keyBlock_apply m c t) (maskTile_apply m c t) u r d

end Final

/-- An index of the result array is in point `t`'s tile iff each coordinate is in the tile's range on its axis. -/
theorem mem_tile (t : Fin cfg0.N) (i : S16x2048x16.Idx) :
    i ∈ ((cfg0.win 4).blk t).view.set ↔ ∀ a : Fin 3, win0_4.index t a * S1x1024x16.size a ≤ (i a).val
      ∧ (i a).val < win0_4.index t a * S1x1024x16.size a + S1x1024x16.size a := by
  show i ∈ ((View.whole main_v0).slice (win0_4.rect t)).set ↔ _
  rw [View.set_slice_whole, Rect.mem_set_unit]
  exact Iff.rfl

/-- The tiles cover the result array: row `r` of batch `b` lies in the tile of the point `(b, r / 1024)`, and every
    point writes its tile back. -/
theorem cover (i : S16x2048x16.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 16 := (i 2).isLt
  obtain ⟨t, ht⟩ := tile_onto ⟨(i 0).val, h0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_tile]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 16 ≤ (i 2).val ∧ (i 2).val < win0_4.index t (2 : Fin 3) * 16 + 16; omega

/-- The result array after the run is the closed form of the argument arrays (given the tile computation's payload in
    closed form). -/
theorem final4_of (hpay : ∀ (v0 : Vec Ideal S16 .f32) (v1 : Vec Ideal S1x1024x16 .f32) (v7 : Vec Ideal S1x2048x16 .f32)
    (v13 : Vec Ideal S1x1024x2048 .i32), k0_pay1 (F := Ideal) v0 v1 v7 v13 = blockOut v0 v1 v7 v13) (c : Dev nD) :
    (dats m 0 c).arrAt 4 cfg0.N
      = outK (m ((c.tc : Thread nD τ).loc main_arg0)) (m ((c.tc : Thread nD τ).loc main_arg1)) (m ((c.tc : Thread nD τ).loc main_arg2)) :=
  (dats m 0 c).arrAt_eq_of_cover 4 _ (fun t _ => flushed_eq m hpay c t) cover

end Cert.KernelIdeal.HandValue

end
-- ==== Proof.LibMatmulNT.lean ====
/-
  A matrix product with the right operand contracted on its LAST axis, read at an index, at the ideal values.

  For an M×K matrix A and an N×K matrix B, the product that contracts axis 1 of both (dimension numbers
  [1], [1], [0], [0], no batch axis: A · Bᵀ) has at (a, b) the entry

      acc (a, b) + ∑ c < K, A (a, c) · B (b, c)

  on the extended reals, and just the sum when the accumulator is the zero splat. The index of the contraction is
  the one coordinate c; the operand indices at output (a, b) and contraction position c are (a, c) and (b, c).
-/
import Idealize.ShloMosaic.Lib.ValueIdx
import Idealize.ShloMosaic.PureOps.Ideal.Laws

noncomputable section

open scoped BigOperators

namespace Idealize.ShloMosaic.MatmulNT

open Idealize.ShloMosaic Idealize.ShloMosaic.ValueIdx

variable {M K N : Nat}

/-- The left operand's index at output (a, b) and contraction position c is (a, c). -/
theorem lhsIdx_transposedRhs (a : Fin M) (b : Fin N) (c : Fin K) :
    (DotDims.transposedRhs M K N).lhsIdx (ix2 a b) ((contrEquiv1 (DotDims.transposedRhs M K N) K rfl rfl).symm c) = ix2 a c := by
  have c2 := contrEquiv1_symm_val (DotDims.transposedRhs M K N) K rfl rfl c
  funext ax; apply Fin.ext
  match ax with
  | ⟨0, _⟩ => simp [DotDims.lhsIdx, DotDims.transposedRhs]; rfl
  | ⟨1, _⟩ => simp [DotDims.lhsIdx, DotDims.transposedRhs]; exact c2

/-- The right operand's index at output (a, b) and contraction position c is (b, c). -/
theorem rhsIdx_transposedRhs (a : Fin M) (b : Fin N) (c : Fin K) :
    (DotDims.transposedRhs M K N).rhsIdx (ix2 a b) ((contrEquiv1 (DotDims.transposedRhs M K N) K rfl rfl).symm c) = ix2 b c := by
  have c2 := contrEquiv1_symm_val (DotDims.transposedRhs M K N) K rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A · Bᵀ accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![N, K]⟩ φ₂) (acc : FVec Ideal ⟨2, ![M, N]⟩ .f32) (a : Fin M) (b : Fin N) :
    FloatOps.matmul (DotDims.transposedRhs M K N) prec A B acc (ix2 a b)
      = acc (ix2 a b) + ∑ c : Fin K, A (ix2 a c) * B (ix2 b c) := by
  rw [Ideal.matmul_apply, ← Equiv.sum_comp (contrEquiv1 (DotDims.transposedRhs M K N) K rfl rfl).symm]
  refine congrArg (acc (ix2 a b) + ·) (Finset.sum_congr rfl fun c _ => ?_)
  rw [lhsIdx_transposedRhs, rhsIdx_transposedRhs]

/-- A · Bᵀ into the zero splat, at (a, b): the sum over the contracted coordinate. -/
theorem matmul_zero_apply {φ₁ φ₂ : FTy} (prec : Option ContractPrecision)
    (A : FVec Ideal ⟨2, ![M, K]⟩ φ₁) (B : FVec Ideal ⟨2, ![N, K]⟩ φ₂) (a : Fin M) (b : Fin N) :
    FloatOps.matmul (DotDims.transposedRhs M K N) prec A B (constant ⟨2, ![M, N]⟩ .f32 0x00000000#32) (ix2 a b)
      = ∑ c : Fin K, A (ix2 a c) * B (ix2 b c) := by
  rw [Ideal.matmul_constant_zero_apply, ← Equiv.sum_comp (contrEquiv1 (DotDims.transposedRhs M K N) K rfl rfl).symm]
  refine Finset.sum_congr rfl fun c _ => ?_
  rw [lhsIdx_transposedRhs, rhsIdx_transposedRhs]

end Idealize.ShloMosaic.MatmulNT

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.Payload.lean ====
/-
  The value the kernel body stores, read at an index.

  The body turns its tile of query rows and the batch's key rows into features `cos (x + θ)`, multiplies the query
  features with the transposed key features, scales by a quarter, puts `-1e9` where the mask word is zero,
  exponentiates, divides every row by its sum, and multiplies the weights with the key features again. Each stage is
  named here as a function of the arrays before it and read at explicit coordinates; chained, they say that the stored
  block is, at `(0, r, d)`, the softmax-weighted sum `Σ_k (exp s_k / Σ_j exp s_j) · featK k d` of the closed form
  `blockOut`. Nothing here needs a value to be finite: every step is a reading of an index.
-/
import proofs.«147347_j65481071409553_2_alg».proof.Proof.Gen.KernelIdeal.Skeleton
import proofs.«147347_j65481071409553_2_alg».proof.Proof.Spec
import proofs.«147347_j65481071409553_2_alg».proof.Proof.LibMatmulNT
import proofs.«147347_j65481071409553_2_alg».proof.Proof.LibMatmulNN
import proofs.«147347_j65481071409553_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Pay

open Idealize.ShloMosaic Idealize.ShloMosaic.ValueIdx Cert.KernelIdeal

/-! ## The kernel body's intermediate arrays, as functions of what comes before them -/

/-- The feature array of a block of token rows: the cosine of the rows, viewed as a matrix, plus the phase vector
    laid as a row and repeated down the rows. -/
def features {a : ℕ} (th : FVec Ideal ⟨1, ![16]⟩ .f32) (x : FVec Ideal ⟨3, ![1, a, 16]⟩ .f32)
    (h1 : (⟨3, ![1, a, 16]⟩ : Shape).ShapeCasts ⟨2, ![a, 16]⟩) (h2 : (⟨1, ![16]⟩ : Shape).ShapeCasts ⟨2, ![1, 16]⟩)
    (h3 : (⟨2, ![1, 16]⟩ : Shape).Broadcasts ⟨2, ![a, 16]⟩) : FVec Ideal ⟨2, ![a, 16]⟩ .f32 :=
  cos (addf (shapeCast ⟨2, ![a, 16]⟩ x h1) (broadcastTo ⟨2, ![a, 16]⟩ (shapeCast ⟨2, ![1, 16]⟩ th h2) h3))

/-- Read at `(r, d)`: the cosine of the row's entry plus the phase of that feature. -/
theorem features_apply {a : ℕ} (th : FVec Ideal ⟨1, ![16]⟩ .f32) (x : FVec Ideal ⟨3, ![1, a, 16]⟩ .f32)
    (h1 : (⟨3, ![1, a, 16]⟩ : Shape).ShapeCasts ⟨2, ![a, 16]⟩) (h2 : (⟨1, ![16]⟩ : Shape).ShapeCasts ⟨2, ![1, 16]⟩)
    (h3 : (⟨2, ![1, 16]⟩ : Shape).Broadcasts ⟨2, ![a, 16]⟩) (r : Fin a) (d : Fin 16) :
    features th x h1 h2 h3 (ix2 r d) = Ideal.cos (x (ix3 (0 : Fin 1) r d) + th (ix1 d)) := by
  show Ideal.cos (shapeCast ⟨2, ![a, 16]⟩ x h1 (ix2 r d)
      + broadcastTo ⟨2, ![a, 16]⟩ (shapeCast ⟨2, ![1, 16]⟩ th h2) h3 (ix2 r d)) = _
  rw [shapeCast_1ab_ab_apply, broadcastTo_1b_ab_apply, shapeCast_a_1a_apply]

/-- The exponentials of the masked scores: the product of the query features with the transposed key features, scaled by
    the word of a quarter, replaced by the word of `-1e9` where the mask word is zero, exponentiated. -/
def expScores (fq : FVec Ideal ⟨2, ![1024, 16]⟩ .f32) (fk : FVec Ideal ⟨2, ![2048, 16]⟩ .f32)
    (m : IVec ⟨2, ![1024, 2048]⟩ 32) : FVec Ideal ⟨2, ![1024, 2048]⟩ .f32 :=
  exp (select (cmpi .eq m (broadcast ⟨2, ![1024, 2048]⟩ 0#32))
    (broadcast ⟨2, ![1024, 2048]⟩ (Scalar.ofBits (F := Ideal) .f32 0xCE6E6B28#32))
    (mulf (FloatOps.matmul (DotDims.transposedRhs 1024 16 2048) none fq fk (constant (F := Ideal) ⟨2, ![1024, 2048]⟩ .f32 0x00000000#32))
      (broadcast ⟨2, ![1024, 2048]⟩ (Scalar.ofBits (F := Ideal) .f32 0x3E800000#32))))

/-- Read at `(r, k)`. -/
theorem expScores_apply (fq : FVec Ideal ⟨2, ![1024, 16]⟩ .f32) (fk : FVec Ideal ⟨2, ![2048, 16]⟩ .f32)
    (m : IVec ⟨2, ![1024, 2048]⟩ 32) (r : Fin 1024) (k : Fin 2048) :
    expScores fq fk m (ix2 r k)
      = Ideal.exp (if m (ix2 r k) = 0#32 then negBig else (∑ d : Fin 16, fq (ix2 r d) * fk (ix2 k d)) * quarter) := by
  show Ideal.exp (Scalar.select (IntOp.cmpi .eq (m (ix2 r k)) 0#32) negBig
    (FloatOps.matmul (DotDims.transposedRhs 1024 16 2048) none fq fk (constant (F := Ideal) ⟨2, ![1024, 2048]⟩ .f32 0x00000000#32) (ix2 r k) * quarter)) = _
  rw [MatmulNT.matmul_zero_apply]
  by_cases hm : m (ix2 r k) = 0#32
  · rw [if_pos hm, hm]; rfl
  · rw [if_neg hm]
    have hb : IntOp.cmpi .eq (m (ix2 r k)) 0#32 = 0#1 := by
      show BitVec.ofBool (m (ix2 r k) == 0#32) = 0#1
      rw [beq_eq_false_iff_ne.mpr hm]; rfl
    rw [hb, select_zero]

/-- The source index of a sum over the second axis of a matrix: the row `r` with `k` inserted as the column. -/
theorem lift_row {a b : ℕ} (h : (⟨2, ![a, b]⟩ : Shape).Reduces [1] ⟨1, ![a]⟩) (r : Fin a) (k : Fin b) :
    h.lift (ix1 r) k = ix2 r k := by
  funext c; apply Fin.ext
  match c with
  | ⟨0, _⟩ => rfl
  | ⟨1, _⟩ => rfl

/-- A sum over the second axis of a matrix, from the zero word, read at row `r`: the sum of the row's entries. -/
theorem rowSum_apply {a b : ℕ} (E : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ E 0x00000000#32 h hφ hacc (ix1 r) = ∑ k : Fin b, E (ix2 r k) := by
  refine (Ideal.multiReduction_add_single E 0x00000000#32 h hφ hacc (ix1 r)).trans ?_
  show ∑ k : Fin b, E (h.lift (ix1 r) k) = _
  exact Finset.sum_congr rfl fun k _ => congrArg E (lift_row h r k)

/-- The weights: each exponential divided by its row's sum, the sum re-laid as a column and repeated along the row. -/
def weights (E : FVec Ideal ⟨2, ![1024, 2048]⟩ .f32) (h : (⟨2, ![1024, 2048]⟩ : Shape).Reduces [1] ⟨1, ![1024]⟩)
    (hc : (⟨1, ![1024]⟩ : Shape).ShapeCasts ⟨2, ![1024, 1]⟩) (hb : (⟨2, ![1024, 1]⟩ : Shape).Broadcasts ⟨2, ![1024, 2048]⟩) :
    FVec Ideal ⟨2, ![1024, 2048]⟩ .f32 :=
  divf E (broadcastTo ⟨2, ![1024, 2048]⟩ (shapeCast ⟨2, ![1024, 1]⟩
    (multiReduction (F := Ideal) .add [1] ⟨1, ![1024]⟩ E 0x00000000#32 h (.inl rfl) rfl) hc) hb)

/-- Read at `(r, k)`. -/
theorem weights_apply (E : FVec Ideal ⟨2, ![1024, 2048]⟩ .f32) (h : (⟨2, ![1024, 2048]⟩ : Shape).Reduces [1] ⟨1, ![1024]⟩)
    (hc : (⟨1, ![1024]⟩ : Shape).ShapeCasts ⟨2, ![1024, 1]⟩) (hb : (⟨2, ![1024, 1]⟩ : Shape).Broadcasts ⟨2, ![1024, 2048]⟩)
    (r : Fin 1024) (k : Fin 2048) :
    weights E h hc hb (ix2 r k) = Ideal.div (E (ix2 r k)) (∑ j : Fin 2048, E (ix2 r j)) := by
  show Ideal.div (E (ix2 r k)) (broadcastTo ⟨2, ![1024, 2048]⟩ (shapeCast ⟨2, ![1024, 1]⟩
    (multiReduction (F := Ideal) .add [1] ⟨1, ![1024]⟩ E 0x00000000#32 h (.inl rfl) rfl) hc) hb (ix2 r k)) = _
  rw [Cert.Lib.Column.broadcastTo_shapeCast_column_apply]
  exact congrArg (Ideal.div (E (ix2 r k))) (rowSum_apply E h (.inl rfl) rfl r)

/-- The stored block: the weights times the key features, laid back under a leading unit axis. -/
def stored (W : FVec Ideal ⟨2, ![1024, 2048]⟩ .f32) (fk : FVec Ideal ⟨2, ![2048, 16]⟩ .f32)
    (hs : (⟨2, ![1024, 16]⟩ : Shape).ShapeCasts ⟨3, ![1, 1024, 16]⟩) : FVec Ideal ⟨3, ![1, 1024, 16]⟩ .f32 :=
  shapeCast ⟨3, ![1, 1024, 16]⟩
    (FloatOps.matmul (DotDims.plain 1024 2048 16) none W fk (constant (F := Ideal) ⟨2, ![1024, 16]⟩ .f32 0x00000000#32)) hs

/-- Read at `(u, r, d)`. -/
theorem stored_apply (W : FVec Ideal ⟨2, ![1024, 2048]⟩ .f32) (fk : FVec Ideal ⟨2, ![2048, 16]⟩ .f32)
    (hs : (⟨2, ![1024, 16]⟩ : Shape).ShapeCasts ⟨3, ![1, 1024, 16]⟩) (u : Fin 1) (r : Fin 1024) (d : Fin 16) :
    stored W fk hs (ix3 u r d) = ∑ k : Fin 2048, W (ix2 r k) * fk (ix2 k d) := by
  unfold stored
  rw [shapeCast_ab_1ab_apply, MatmulNN.matmul_zero_apply]

/-! ## The payload -/

/-- The stored value is the chain of the stages above. -/
theorem pay_eq_stages (v0 : Vec Ideal S16 .f32) (v1 : Vec Ideal S1x1024x16 .f32) (v7 : Vec Ideal S1x2048x16 .f32)
    (v13 : Vec Ideal S1x1024x2048 .i32) :
    Cert.KernelIdeal.Gen.k0_pay1 (F := Ideal) v0 v1 v7 v13
      = stored (weights (expScores (features v0 v1 Gen.shapeCasts_S1x1024x16_S1024x16 Gen.shapeCasts_S16_S1x16 Gen.broadcasts_S1x16_S1024x16)
            (features v0 v7 Gen.shapeCasts_S1x2048x16_S2048x16 Gen.shapeCasts_S16_S1x16 Gen.broadcasts_S1x16_S2048x16)
            (shapeCast S1024x2048 v13 Gen.shapeCasts_S1x1024x2048_S1024x2048))
          Gen.reduces_S1024x2048_S1024 Gen.shapeCasts_S1024_S1024x1 Gen.broadcasts_S1024x1_S1024x2048)
        (features v0 v7 Gen.shapeCasts_S1x2048x16_S2048x16 Gen.shapeCasts_S16_S1x16 Gen.broadcasts_S1x16_S2048x16)
        Gen.shapeCasts_S1024x16_S1x1024x16 := rfl

/-- The value the kernel body stores is the block's output. -/
theorem pay_eq_blockOut (v0 : Vec Ideal S16 .f32) (v1 : Vec Ideal S1x1024x16 .f32) (v7 : Vec Ideal S1x2048x16 .f32)
    (v13 : Vec Ideal S1x1024x2048 .i32) :
    Cert.KernelIdeal.Gen.k0_pay1 (F := Ideal) v0 v1 v7 v13 = Cert.Attn.blockOut v0 v1 v7 v13 := by
  funext i
  obtain ⟨z, r, d, rfl⟩ : ∃ (z : Fin 1) (r : Fin 1024) (d : Fin 16), i = ix3 z r d := ⟨i 0, i 1, i 2, eq_ix3 i⟩
  rw [pay_eq_stages, stored_apply]
  show _ = ∑ k : Fin 2048, Ideal.div (Ideal.exp (scoreB v0 v1 v7 v13 r k)) (∑ j : Fin 2048, Ideal.exp (scoreB v0 v1 v7 v13 r j)) * featK v0 v7 k d
  have hE : ∀ k : Fin 2048,
      expScores (features v0 v1 Gen.shapeCasts_S1x1024x16_S1024x16 Gen.shapeCasts_S16_S1x16 Gen.broadcasts_S1x16_S1024x16)
          (features v0 v7 Gen.shapeCasts_S1x2048x16_S2048x16 Gen.shapeCasts_S16_S1x16 Gen.broadcasts_S1x16_S2048x16)
          (shapeCast S1024x2048 v13 Gen.shapeCasts_S1x1024x2048_S1024x2048) (ix2 r k)
        = Ideal.exp (scoreB v0 v1 v7 v13 r k) := by
    intro k
    rw [expScores_apply, shapeCast_1ab_ab_apply]
    unfold scoreB featQ featK
    simp only [features_apply]
  refine Finset.sum_congr rfl fun k _ => ?_
  rw [weights_apply, features_apply, hE k]
  simp only [hE]
  rfl

end Cert.Attn.Pay

end
-- ==== Proof.KIValue.lean ====
/-
  The kernel's result array after the run is the closed form `outK` of the argument arrays: the tile computation's
  payload is `blockOut` of its four blocks, every block is its array read at the point's batch and rows, and the 32
  result tiles cover the array.
-/
import proofs.«147347_j65481071409553_2_alg».proof.Proof.KIValue0
import proofs.«147347_j65481071409553_2_alg».proof.Proof.Payload

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Cert.Attn

/-- The result array after the run: at every index the softmax-weighted sum of the value rows, the weights taken
    directly and the scores scaled by a quarter. -/
theorem final4 (m : (ℓ : Loc nD τ sig) → Buf (Elt Ideal) ℓ) (c : Dev nD) :
    (dats m 0 c).arrAt 4 cfg0.N
      = Cert.Attn.outK (m ((c.tc : Thread nD τ).loc main_arg0)) (m ((c.tc : Thread nD τ).loc main_arg1))
          (m ((c.tc : Thread nD τ).loc main_arg2)) :=
  final4_of m Cert.Attn.Pay.pay_eq_blockOut c

end Cert.KernelIdeal.HandValue

end
-- ==== Proof.RefValue.lean ====
/-
  The reference's result array as a function of the argument arrays.

  The reference computes, for every batch `b`, query row `q` and feature `d`, the softmax-weighted sum of the value
  column `d` with the row's largest score subtracted before exponentiating. Each stage is read at one index: the
  features `cos (x + θ)`, the scores (a dot product of two feature rows divided by `√16`, or the fixed number where the
  mask is zero), the row maximum (a maximum over the key axis started from `-∞`, which is the supremum of the row), the
  exponentials, their row sum (started from `0`), the weights, and the output. The four-axis arrays carry a unit axis
  in position one; the final transpose and reshape drop it.
-/
import proofs.«147347_j65481071409553_2_alg».proof.Proof.Gen.ReferenceIdeal.Read
import proofs.«147347_j65481071409553_2_alg».proof.Proof.Spec

noncomputable section

namespace Cert.Attn.Ref

open Cert.ReferenceIdeal Cert.ReferenceIdeal.Gen Cert.ReferenceIdeal.Read Idealize.ShloMosaic Idealize.ShloMosaic.ValueIdx
open scoped BigOperators

/-! ## Words -/

/-- The f32 word with the sign set, the exponent all ones and the mantissa zero is `-∞`. -/
theorem negInf_word : Ideal.ofBits .f32 0xFF800000#32 = (⊥ : EReal) := by
  simp [Ideal.ofBits, Ideal.ieee]

/-- A select on the bit of "the integer word is zero" is the `if` on that equation. -/
theorem select_cmpi_eq {α : Type} (m : BitVec 32) (A B : α) :
    Scalar.select (IntOp.cmpi .eq m 0#32) A B = if m = 0#32 then A else B := by
  unfold Scalar.select
  by_cases h : m = 0#32
  · rw [if_pos h]; exact if_pos (IntOp.cmpi_eq.mpr h)
  · rw [if_neg h]; exact if_neg (fun h' => h (IntOp.cmpi_eq.mp h'))

/-! ## The layout operations' index functions, by coordinates -/

theorem idx4 (b : Fin 16) (u : Fin 1) (s : Fin 2048) (d : Fin 16) :
    idx_main_v4 (ix4 b u s d) = ix3 b s d := by
  funext a; match a with | ⟨0, _⟩ => rfl | ⟨1, _⟩ => rfl | ⟨2, _⟩ => rfl

theorem idx01 (b : Fin 16) (s : Fin 2048) (d : Fin 16) :
    idx_main_v0 (idx_main_v1 (ix3 b s d)) = ix1 d := by
  funext a; match a with | ⟨0, _⟩ => rfl

theorem lidx5 (b : Fin 16) (u : Fin 1) (q k : Fin 2048) (d : Fin 16) :
    lidx_main_v5 (ix4 b u q k) d = ix4 b u q d := by
  funext a; match a with | ⟨0, _⟩ => rfl | ⟨1, _⟩ => rfl | ⟨2, _⟩ => rfl | ⟨3, _⟩ => rfl

theorem ridx5 (b : Fin 16) (u : Fin 1) (q k : Fin 2048) (d : Fin 16) :
    ridx_main_v5 (ix4 b u q k) d = ix4 b u k d := by
  funext a; match a with | ⟨0, _⟩ => rfl | ⟨1, _⟩ => rfl | ⟨2, _⟩ => rfl | ⟨3, _⟩ => rfl

theorem idx9 (b : Fin 16) (u : Fin 1) (q k : Fin 2048) :
    idx_main_v9 (ix4 b u q k) = ix3 b q k := by
  funext a; match a with | ⟨0, _⟩ => rfl | ⟨1, _⟩ => rfl | ⟨2, _⟩ => rfl

theorem idx17 (b : Fin 16) (u : Fin 1) (q k : Fin 2048) :
    idx_main_v17 (ix4 b u q k) = ix4 b (0 : Fin 1) q (0 : Fin 1) := by
  funext a; match a with | ⟨0, _⟩ => rfl | ⟨1, _⟩ => rfl | ⟨2, _⟩ => rfl | ⟨3, _⟩ => rfl

theorem idx16 (b : Fin 16) (u : Fin 1) (q : Fin 2048) (w : Fin 1) :
    idx_main_v16 (ix4 b u q w) = ix3 b (0 : Fin 1) q := by
  funext a; match a with | ⟨0, _⟩ => rfl | ⟨1, _⟩ => rfl | ⟨2, _⟩ => rfl

theorem idx20 (b : Fin 16) (u : Fin 1) (q k : Fin 2048) :
    idx_main_v20 (ix3 b u q) k = ix4 b u q k := by
  funext a; match a with | ⟨0, _⟩ => rfl | ⟨1, _⟩ => rfl | ⟨2, _⟩ => rfl | ⟨3, _⟩ => rfl

theorem idx22 (b : Fin 16) (u : Fin 1) (q k : Fin 2048) :
    idx_main_v22 (ix4 b u q k) = ix4 b (0 : Fin 1) q (0 : Fin 1) := by
  funext a; match a with | ⟨0, _⟩ => rfl | ⟨1, _⟩ => rfl | ⟨2, _⟩ => rfl | ⟨3, _⟩ => rfl

theorem idx21 (b : Fin 16) (u : Fin 1) (q : Fin 2048) (w : Fin 1) :
    idx_main_v21 (ix4 b u q w) = ix3 b (0 : Fin 1) q := by
  funext a; match a with | ⟨0, _⟩ => rfl | ⟨1, _⟩ => rfl | ⟨2, _⟩ => rfl

theorem lidx24 (b : Fin 16) (u : Fin 1) (q : Fin 2048) (d : Fin 16) (k : Fin 2048) :
    lidx_main_v24 (ix4 b u q d) k = ix4 b u q k := by
  funext a; match a with | ⟨0, _⟩ => rfl | ⟨1, _⟩ => rfl | ⟨2, _⟩ => rfl | ⟨3, _⟩ => rfl

theorem ridx24 (b : Fin 16) (u : Fin 1) (q : Fin 2048) (d : Fin 16) (k : Fin 2048) :
    ridx_main_v24 (ix4 b u q d) k = ix4 b u k d := by
  funext a; match a with | ⟨0, _⟩ => rfl | ⟨1, _⟩ => rfl | ⟨2, _⟩ => rfl | ⟨3, _⟩ => rfl

theorem idx25 (b : Fin 16) (q : Fin 2048) (u : Fin 1) (d : Fin 16) :
    idx_main_v25 (ix4 b q u d) = ix4 b u q d := by
  funext a; match a with | ⟨0, _⟩ => rfl | ⟨1, _⟩ => rfl | ⟨2, _⟩ => rfl | ⟨3, _⟩ => rfl

/-- The reshape keeps row-major positions: position `(b · 2048 + q) · 16 + d` of the three-axis result is entry
    `(b, q, 0, d)` of the four-axis array. -/
theorem idx26 (b : Fin 16) (q : Fin 2048) (d : Fin 16) :
    idx_main_v26 (ix3 b q d) = ix4 b q (0 : Fin 1) d := by
  have hb := b.isLt; have hq := q.isLt; have hd := d.isLt
  funext a
  match a with
  | ⟨0, _⟩ => exact Fin.ext (by show ((b.val * 2048 + q.val) * 16 + d.val) / 32768 = b.val; omega)
  | ⟨1, _⟩ => exact Fin.ext (by show ((b.val * 2048 + q.val) * 16 + d.val) / 16 % 2048 = q.val; omega)
  | ⟨2, _⟩ => rfl
  | ⟨3, _⟩ => exact Fin.ext (by show ((b.val * 2048 + q.val) * 16 + d.val) % 16 = d.val; omega)

/-! ## The stages at an index -/

section Stages
variable (x0 : (⟨S16x2048x16, .f32⟩ : BufTy).Contents (Elt Ideal)) (x1 : (⟨S16x2048x2048, .i32⟩ : BufTy).Contents (Elt Ideal))
  (x2 : (⟨S16, .f32⟩ : BufTy).Contents (Elt Ideal))

/-- The features: entry `(b, ·, s, d)` of the four-axis feature array is `cos (x (b, s, d) + θ d)`. -/
theorem feat_read (b : Fin 16) (u : Fin 1) (s : Fin 2048) (d : Fin 16) :
    val_main_v4 (F := Ideal) x0 x2 (ix4 b u s d) = feat x0 x2 b s d := by
  rw [val_main_v4_apply, val_main_v3_apply, val_main_v2_apply, val_main_v1_apply, val_main_v0_apply, idx4, idx01]
  rfl

/-- The scores: the dot product of the two feature rows over `√16`, or the fixed word where the mask is zero. -/
theorem score_read (b : Fin 16) (u : Fin 1) (q k : Fin 2048) :
    val_main_v12 (F := Ideal) x0 x1 x2 (ix4 b u q k) = scoreR x0 x1 x2 b q k := by
  rw [val_main_v12_apply, val_main_v11_apply, val_main_v9_apply, val_main_v10_apply, val_main_c_apply,
    val_main_call0_v0_apply, val_main_cst_0_apply, val_main_v8_apply, val_main_v5_apply, val_main_v7_apply,
    val_main_v6_apply, val_main_cst_apply, idx9, select_cmpi_eq]
  simp only [lidx5, ridx5, feat_read]
  rfl

/-- The row maximum: a maximum over the key axis started from `-∞` is the supremum of the row. -/
theorem rowmax_read (b : Fin 16) (u : Fin 1) (q : Fin 2048) :
    val_main_v13 (F := Ideal) x0 x1 x2 (ix3 b u q)
      = Finset.univ.sup (fun k : Fin 2048 => scoreR x0 x1 x2 b q k) := by
  unfold val_main_v13
  rw [Host.reduce_eq_fold_single FloatOps.maximumf _ _ reducesTo_S16x1x2048x2048_S16x1x2048_d3 (by decide) h_S_,
    val_main_cst_1_apply]
  have hf : (val_main_v12 (F := Ideal) x0 x1 x2 ∘ Shape.Reduces.lift (s := S16x1x2048x2048) (t := S16x1x2048) (a := 3) (by decide) (ix3 b u q))
      = fun k : Fin 2048 => scoreR x0 x1 x2 b q k := by
    funext k
    rw [← score_read x0 x1 x2 b u q k]
    exact congrArg (val_main_v12 (F := Ideal) x0 x1 x2) (funext fun a => Fin.ext (by
      match a with | ⟨0, _⟩ => rfl | ⟨1, _⟩ => rfl | ⟨2, _⟩ => rfl | ⟨3, _⟩ => rfl))
  rw [hf]
  show Finset.fold max (Ideal.ofBits .f32 0xFF800000#32) _ _ = _
  rw [negInf_word]
  rfl

/-- The amount subtracted from every score of a row: `max (-∞) M = M`, spread back over the key axis. -/
theorem shift_read (b : Fin 16) (u : Fin 1) (q k : Fin 2048) :
    val_main_v17 (F := Ideal) x0 x1 x2 (ix4 b u q k)
      = Finset.univ.sup (fun j : Fin 2048 => scoreR x0 x1 x2 b q j) := by
  rw [val_main_v17_apply, idx17, val_main_v16_apply, idx16, val_main_v15_apply, val_main_v14_apply,
    val_main_cst_2_apply, rowmax_read]
  show max (Ideal.ofBits .f32 0xFF800000#32) _ = _
  rw [negInf_word]
  exact max_eq_right bot_le

/-- The exponential of the shifted score. -/
theorem exp_read (b : Fin 16) (u : Fin 1) (q k : Fin 2048) :
    val_main_v19 (F := Ideal) x0 x1 x2 (ix4 b u q k)
      = Ideal.exp (scoreR x0 x1 x2 b q k - Finset.univ.sup (fun j : Fin 2048 => scoreR x0 x1 x2 b q j)) := by
  rw [val_main_v19_apply, val_main_v18_apply, score_read, shift_read]
  rfl

/-- The row sum of the exponentials, started from the zero word: `0 + Σ = Σ`, spread back over the key axis. -/
theorem sum_read (b : Fin 16) (u : Fin 1) (q k : Fin 2048) :
    val_main_v22 (F := Ideal) x0 x1 x2 (ix4 b u q k)
      = ∑ j : Fin 2048, Ideal.exp (scoreR x0 x1 x2 b q j - Finset.univ.sup (fun j : Fin 2048 => scoreR x0 x1 x2 b q j)) := by
  rw [val_main_v22_apply, idx22, val_main_v21_apply, idx21, val_main_v20_apply, val_main_cst_3_apply]
  simp only [idx20, exp_read]
  show Ideal.ofBits .f32 0x00000000#32 + _ = _
  rw [Ideal.ofBits_zero_f32, zero_add]

/-- The weights: each exponential over the row sum. -/
theorem weight_read (b : Fin 16) (u : Fin 1) (q k : Fin 2048) :
    val_main_v23 (F := Ideal) x0 x1 x2 (ix4 b u q k)
      = Ideal.div (Ideal.exp (scoreR x0 x1 x2 b q k - Finset.univ.sup (fun j : Fin 2048 => scoreR x0 x1 x2 b q j)))
          (∑ j : Fin 2048, Ideal.exp (scoreR x0 x1 x2 b q j - Finset.univ.sup (fun j : Fin 2048 => scoreR x0 x1 x2 b q j))) := by
  rw [val_main_v23_apply, exp_read, sum_read]
  rfl

/-- The result array is the closed form: the weights times the value column, with the unit axis dropped. -/
theorem val_eq_outR :
    Cert.ReferenceIdeal.Read.val_main_v26 (F := Ideal) x0 x1 x2 = Cert.Attn.outR x0 x1 x2 := by
  funext i
  obtain ⟨b, q, d, rfl⟩ : ∃ b q d, i = ix3 b q d := ⟨i 0, i 1, i 2, eq_ix3 i⟩
  rw [val_main_v26_apply, idx26, val_main_v25_apply, idx25, val_main_v24_apply]
  simp only [lidx24, ridx24, weight_read, feat_read]
  rfl

end Stages

end Cert.Attn.Ref

end
-- ==== Proof.LibERealCoe.lean ====
/-
  Pushing the coercion of the reals into the extended reals through finite sums, maxima and minima.

  The coercion ℝ → [-∞, +∞] is an additive map and strictly monotone, so it commutes with a finite sum and with the
  maximum and the minimum of two reals. With these an identity between extended-real expressions whose entries are
  all (coercions of) reals is the coercion of the same identity over ℝ, where distributivity and cancellation hold.
-/
import Mathlib.Data.EReal.Operations
import Mathlib.Algebra.BigOperators.Group.Finset.Basic

open scoped BigOperators

namespace Cert.Spec

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- The coercion of the smaller of two reals is the smaller of the coercions. -/
theorem coe_min (a b : ℝ) : ((min a b : ℝ) : EReal) = min (a : EReal) (b : EReal) :=
  EReal.coe_strictMono.monotone.map_min

/-- A finite sum of extended reals that are all reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

end Cert.Spec
-- ==== Proof.Softmax.lean ====
/-
  The algebra that joins the two closed forms of the attention row: shifting every score by the row's largest score
  leaves the softmax weights unchanged when the scores are real numbers, and a division by `√16` is a product with
  `0.25` for every extended real.

  With real scores `s_k` the row maximum `M` is one of them, hence real; `exp (s_k − M) = exp s_k / exp M` with
  `exp M` a positive real, so `Σ_j exp (s_j − M) = (Σ_j exp s_j) / exp M` is a positive real and the common factor
  `1 / exp M` cancels in the quotient. The values contracted with the weights are arbitrary extended reals: only the
  weights are rewritten.
-/
import proofs.«147347_j65481071409553_2_alg».proof.Proof.Spec
import proofs.«147347_j65481071409553_2_alg».proof.Proof.LibERealCoe
import Idealize.ShloMosaic.PureOps.Ideal
import Idealize.ShloMosaic.PureOps.Ideal.Laws
import Mathlib

noncomputable section

open scoped BigOperators

namespace Cert.Attn

open Idealize.ShloMosaic Idealize.ShloMosaic.ValueIdx

/-! ## The three float words, read as extended reals -/

/-- The word of `16` denotes the real `16`. -/
theorem sixteen_eq : sixteen = ((16 : ℝ) : EReal) := by
  unfold sixteen
  simp [Ideal.ofBits, Ideal.ieee, -EReal.coe_mul]; norm_num

/-- The word of `0.25` denotes the real `1/4`. -/
theorem quarter_eq : quarter = ((1 / 4 : ℝ) : EReal) := by
  unfold quarter
  simp [Ideal.ofBits, Ideal.ieee, -EReal.coe_mul]; norm_num

/-- The word of `-1e9` denotes the real `-1000000000`. -/
theorem negBig_eq : negBig = ((-1000000000 : ℝ) : EReal) := by
  unfold negBig
  simp [Ideal.ofBits, Ideal.ieee, -EReal.coe_mul]; norm_num

/-- The square root of sixteen is four. -/
theorem sqrt_sixteen : Ideal.sqrt sixteen = ((4 : ℝ) : EReal) := by
  rw [sixteen_eq, Ideal.sqrt_coe, if_neg (by norm_num)]
  congr 1
  rw [show (16 : ℝ) = 4 ^ 2 by norm_num]
  exact Real.sqrt_sq (by norm_num)

/-! ## The scale -/

/-- Dividing by `√16` is multiplying by `0.25`, whatever the dividend. -/
theorem div_sqrt_sixteen (y : EReal) : Ideal.div y (Ideal.sqrt sixteen) = y * quarter := by
  rw [sqrt_sixteen, quarter_eq, Ideal.div_coe (by norm_num : (4 : ℝ) ≠ 0)]

theorem scoreR_eq_scoreK (x : XIdx → EReal) (mk : MIdx → BitVec 32) (θ : TIdx → EReal) (b : Fin 16)
    (q k : Fin 2048) : scoreR x mk θ b q k = scoreK x mk θ b q k := by
  unfold scoreR scoreK
  rw [div_sqrt_sixteen]

/-! ## Real inputs give real scores -/

/-- A feature of real inputs is a real. -/
theorem feat_real (x : XIdx → EReal) (θ : TIdx → EReal) (hx : ∀ i, ∃ r : ℝ, x i = (r : EReal))
    (hθ : ∀ i, ∃ r : ℝ, θ i = (r : EReal)) (b : Fin 16) (s : Fin 2048) (d : Fin 16) :
    ∃ r : ℝ, feat x θ b s d = (r : EReal) := by
  obtain ⟨a, ha⟩ := hx (ix3 b s d)
  obtain ⟨t, ht⟩ := hθ (ix1 d)
  exact ⟨Real.cos (a + t), by unfold feat; rw [ha, ht, ← EReal.coe_add, Ideal.cos_coe]⟩

theorem scoreK_real (x : XIdx → EReal) (mk : MIdx → BitVec 32) (θ : TIdx → EReal)
    (hx : ∀ i, ∃ r : ℝ, x i = (r : EReal)) (hθ : ∀ i, ∃ r : ℝ, θ i = (r : EReal)) (b : Fin 16) (q k : Fin 2048) :
    ∃ r : ℝ, scoreK x mk θ b q k = (r : EReal) := by
  unfold scoreK
  split
  · exact ⟨_, negBig_eq⟩
  · obtain ⟨sr, hsr⟩ := Cert.Spec.sum_real Finset.univ (fun d : Fin 16 => feat x θ b q d * feat x θ b k d) (fun d => by
      obtain ⟨u, hu⟩ := feat_real x θ hx hθ b q d
      obtain ⟨w, hw⟩ := feat_real x θ hx hθ b k d
      exact ⟨u * w, by rw [hu, hw, EReal.coe_mul]⟩)
    exact ⟨sr * (1 / 4), by unfold dotQK; rw [hsr, quarter_eq, EReal.coe_mul]⟩

/-! ## The shift by the row maximum -/

/-- The largest of a nonempty finite row of reals is one of them, so a real. -/
theorem sup_real {K : Type} [Fintype K] [Nonempty K] (s : K → EReal) (hs : ∀ k, ∃ r : ℝ, s k = (r : EReal)) :
    ∃ m : ℝ, Finset.univ.sup s = (m : EReal) := by
  obtain ⟨k, -, hk⟩ := Finset.exists_mem_eq_sup Finset.univ Finset.univ_nonempty s
  obtain ⟨r, hr⟩ := hs k
  exact ⟨r, hk.trans hr⟩

theorem attendShifted_eq_attend {K : Type} [Fintype K] [Nonempty K] (s v : K → EReal)
    (hs : ∀ k, ∃ r : ℝ, s k = (r : EReal)) : attendShifted s v = attend s v := by
  obtain ⟨m, hm⟩ := sup_real s hs
  choose g hg using hs
  unfold attendShifted attend
  rw [hm]
  have h1 : ∑ j, Ideal.exp (s j - (m : EReal)) = ((∑ j, Real.exp (g j - m) : ℝ) : EReal) := by
    rw [Cert.Spec.coe_sum]
    exact Finset.sum_congr rfl fun j _ => by rw [hg j, ← EReal.coe_sub, Ideal.exp_coe]
  have h2 : ∑ j, Ideal.exp (s j) = ((∑ j, Real.exp (g j) : ℝ) : EReal) := by
    rw [Cert.Spec.coe_sum]
    exact Finset.sum_congr rfl fun j _ => by rw [hg j, Ideal.exp_coe]
  have hpos1 : 0 < ∑ j, Real.exp (g j - m) := Finset.sum_pos (fun j _ => Real.exp_pos _) Finset.univ_nonempty
  have hpos2 : 0 < ∑ j, Real.exp (g j) := Finset.sum_pos (fun j _ => Real.exp_pos _) Finset.univ_nonempty
  rw [h1, h2]
  refine Finset.sum_congr rfl fun k _ => ?_
  congr 1
  rw [Ideal.div_coe hpos1.ne', Ideal.div_coe hpos2.ne', hg k, ← EReal.coe_sub, Ideal.exp_coe, Ideal.exp_coe,
    ← EReal.coe_mul, ← EReal.coe_mul]
  congr 1
  have hsum : ∑ j, Real.exp (g j - m) = (∑ j, Real.exp (g j)) / Real.exp m := by
    rw [Finset.sum_div]
    exact Finset.sum_congr rfl fun j _ => Real.exp_sub _ _
  rw [hsum, Real.exp_sub]
  have hm0 : Real.exp m ≠ 0 := (Real.exp_pos m).ne'
  field_simp

/-! ## The two result arrays -/

theorem outR_eq_outK (x : XIdx → EReal) (mk : MIdx → BitVec 32) (θ : TIdx → EReal)
    (hx : ∀ i, ∃ r : ℝ, x i = (r : EReal)) (hθ : ∀ i, ∃ r : ℝ, θ i = (r : EReal)) : outR x mk θ = outK x mk θ := by
  funext i
  unfold outR outK
  have hfun : (fun k => scoreR x mk θ (i 0) (i 1) k) = fun k => scoreK x mk θ (i 0) (i 1) k :=
    funext fun k => scoreR_eq_scoreK x mk θ (i 0) (i 1) k
  rw [hfun]
  exact attendShifted_eq_attend _ _ fun k => scoreK_real x mk θ hx hθ (i 0) (i 1) k

end Cert.Attn

end
-- ==== Proof.Finite.lean ====
/-
  The precondition "every entry of the token array and of the phase vector is finite", read back.

  The predicate is the conjunction of two "all" reductions, each over the comparisons `|x| < +∞` of one argument's
  entries. A conjunction of one-bit words is one exactly when both are; an "all" reduction that is one had a one at every
  entry; and an extended real whose absolute value `max x (−x)` lies strictly below `+∞` is neither `+∞` nor `−∞`,
  hence a real number.
-/
import proofs.«147347_j65481071409553_2_alg».proof.Pre_finite_inputs
import proofs.«147347_j65481071409553_2_alg».proof.Proof.Gen.Pre_finite_inputs
import Idealize.ShloMosaic.Lib.ReduceAll
import Idealize.ShloMosaic.Lib.ValueIdx
import Idealize.ShloMosaic.PureOps.Ideal

noncomputable section

namespace Cert.Attn

open Idealize.ShloMosaic Cert.Pre_finite_inputs

/-- The shape of a scalar has one index. -/
instance subsingleton_scalar_idx : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value compares strictly below `+∞` is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

variable [Cert.Pre_finite_inputs.Facts]

theorem finite_of_pre (x0 : FVec Ideal S16x2048x16 .f32) (x1 : IVec S16x2048x2048 32) (x2 : FVec Ideal S16 .f32)
    (h : Cert.Pre_finite_inputs.fn (F := Ideal) x0 x1 x2 = (fun _ => 1#1)) :
    (∀ i, ∃ r : ℝ, x0 i = (r : EReal)) ∧ (∀ i, ∃ r : ℝ, x2 i = (r : EReal)) := by
  have h0 := congrFun h ValueIdx.ix0
  dsimp only [Cert.Pre_finite_inputs.fn, andi] at h0
  obtain ⟨ha, hb⟩ := IntOp.andi_eq_one.1 h0
  refine ⟨fun i => ?_, fun i => ?_⟩
  · exact real_of_abs_lt_inf (x0 i) (Host.reduce_andi_all _ _ _ _ _ ha i)
  · exact real_of_abs_lt_inf (x2 i) (Host.reduce_andi_all _ _ _ _ _ hb i)

end Cert.Attn

end
-- ==== Proof.Algebraic.lean ====
/-
  The value claim. From memories that agree on the three arguments, the idealized kernel ends with its result array
  at `outK` of the arguments — the 32 tiles the points write back tile the array, and each is `outK` read through its
  block — and the idealized reference ends with its result at `outR` of them. With every entry of `x` and `θ` a real
  number (the precondition), every score is a real number, so subtracting the row's largest score before
  exponentiating cancels in the softmax quotient, and dividing by `√16 = 4` is multiplying by `0.25`: the two arrays
  are one.
-/
import proofs.«147347_j65481071409553_2_alg».proof.Proof.Frames
import proofs.«147347_j65481071409553_2_alg».proof.Proof.KIValue
import proofs.«147347_j65481071409553_2_alg».proof.Proof.RefValue
import proofs.«147347_j65481071409553_2_alg».proof.Proof.Softmax
import proofs.«147347_j65481071409553_2_alg».proof.Proof.Finite

noncomputable section

namespace Cert.Proof.Claims

open Idealize.ShloMosaic Idealize.ShloMosaic.TcCoe Idealize.SL.Sem

theorem algebraic : Cert.algebraic_KernelIdeal_ReferenceIdeal := by
  intro m ρ m' ρ' hpre hagree
  refine ⟨fun c => Cert.Attn.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.HandValue.final4 m c), (h c).2⟩)
      (Cert.KernelIdeal.Hand.run_named m ρ)
  · refine (θ_run Cert.ReferenceIdeal.defs _ _).mono (fun _ h c => ⟨?_, (h c).2⟩)
      (Cert.ReferenceIdeal.Value.run (F := Ideal) m' ρ')
    obtain ⟨hx, hθ⟩ := Cert.Attn.finite_of_pre _ _ _ (hpre c)
    rw [(h c).1, Cert.ReferenceIdeal.Read.val_main_v26_eq, Cert.Attn.Ref.val_eq_outR,
      (hagree c).1, (hagree c).2.1, (hagree c).2.2]
    exact Cert.Attn.outR_eq_outK _ _ _ hx hθ

end Cert.Proof.Claims

end
-- ==== Proof.lean ====
/- The proof of `Cert.Claim`: the kernel is one pipelined region of 16 × 2 grid points, each computing one tile of 1024 query
   rows of single-head softmax attention over features `cos (x + θ)`, against a reference that computes the same with
   the row maximum subtracted and the scale a division by `√16`. Proof/Spec.lean states both results as functions of
   the argument arrays; Proof/KIFrameA–C.lean and KFrameA–C.lean are the two printings' runs (two windows read the one
   array `x`, held at the two halves of its share); Proof/Payload.lean reads the body's arithmetic at an index,
   Proof/KIValue.lean the result array off the tiles, Proof/RefValue.lean the reference's result, Proof/Softmax.lean
   the law that joins them, Proof/Finite.lean the precondition as "every entry is a real number"; Proof/Frames.lean
   and Proof/Algebraic.lean state the five claims, assembled here behind the witnesses of the programs' stated facts. -/
import proofs.«147347_j65481071409553_2_alg».proof.Defs
import proofs.«147347_j65481071409553_2_alg».proof.Proof.Frames
import proofs.«147347_j65481071409553_2_alg».proof.Proof.Algebraic
import proofs.«147347_j65481071409553_2_alg».proof.Proof.Gen.Kernel
import proofs.«147347_j65481071409553_2_alg».proof.Proof.Gen.KernelIdeal
import proofs.«147347_j65481071409553_2_alg».proof.Proof.Gen.ReferenceIdeal
import proofs.«147347_j65481071409553_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
